-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x1x4096 : Shape := ⟨3, ![8, 1, 4096]⟩
abbrev S1x1024x3 : Shape := ⟨3, ![1, 1024, 3]⟩
abbrev S1x4096x3 : Shape := ⟨3, ![1, 4096, 3]⟩
abbrev S1x1x1024 : Shape := ⟨3, ![1, 1, 1024]⟩
abbrev S1x1x4096 : Shape := ⟨3, ![1, 1, 4096]⟩
abbrev S1x4096 : Shape := ⟨2, ![1, 4096]⟩
abbrev S1024x3 : Shape := ⟨2, ![1024, 3]⟩
abbrev S4096x3 : Shape := ⟨2, ![4096, 3]⟩
abbrev S1024x4096 : Shape := ⟨2, ![1024, 4096]⟩
abbrev S1024x1 : Shape := ⟨2, ![1024, 1]⟩
abbrev S4096x1 : Shape := ⟨2, ![4096, 1]⟩
abbrev S1024 : Shape := ⟨1, ![1024]⟩
abbrev S1x1024 : Shape := ⟨2, ![1, 1024]⟩
abbrev S4096 : Shape := ⟨1, ![4096]⟩
abbrev S8x4096 : Shape := ⟨2, ![8, 4096]⟩
abbrev S_ : Shape := ⟨0, ![]⟩
abbrev S8 : Shape := ⟨1, ![8]⟩

abbrev nBuf : Space → Nat
  | .hbm => 21
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x4096x3, .f32⟩
  | .local _ .vmem, ⟨3, _⟩ => ⟨S1x4096x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_15 : BitVec 32 := 0#32
  let v46 : BitVec 1 := Scalar.cmpi .ne v45 c0_i32_15
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  slices_S1024x3_o0_0_S1024x1 : S1024x3.Slices ![0, 0] S1024x1
  slices_S4096x3_o0_0_S4096x1 : S4096x3.Slices ![0, 0] S4096x1
  transposes_S4096x1_p1_0_S1x4096 : S4096x1.Transposes [1, 0] S1x4096
  broadcasts_S1024x1_S1024x4096 : S1024x1.Broadcasts S1024x4096
  broadcasts_S1x4096_S1024x4096 : S1x4096.Broadcasts S1024x4096
  slices_S1024x3_o0_1_S1024x1 : S1024x3.Slices ![0, 1] S1024x1
  slices_S4096x3_o0_1_S4096x1 : S4096x3.Slices ![0, 1] S4096x1
  slices_S1024x3_o0_2_S1024x1 : S1024x3.Slices ![0, 2] S1024x1
  slices_S4096x3_o0_2_S4096x1 : S4096x3.Slices ![0, 2] S4096x1
  reduces_S1024x4096_S1024 : S1024x4096.Reduces [1] S1024
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  reduces_S1024x4096_S4096 : S1024x4096.Reduces [0] S4096
  shapeCasts_S4096_S1x4096 : S4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S8x4096x3.size a
  hwx0_1 : ∀ i : grid0.Coords, EltTy.bits .f32 = 32 ∨ (Rect.block (s := S8x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x4096, .f32⟩
  | .hbm, ⟨3, _⟩ => ⟨S_, .f32⟩
  | .hbm, ⟨4, _⟩ => ⟨S8x4096x4096, .f32⟩
  | .hbm, ⟨5, _⟩ => ⟨S8x4096x4096, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S8x4096x4096, .f32⟩
  | .hbm, ⟨11, _⟩ => ⟨S8x4096x4096, .f32⟩
  | .hbm, ⟨12, _⟩ => ⟨S8x4096x3, .f32⟩
  | .hbm, ⟨13, _⟩ => ⟨S_, .f32⟩
  | .hbm, ⟨14, _⟩ => ⟨S8x4096, .f32⟩
  | .hbm, ⟨15, _⟩ => ⟨S8x1x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  Chamfer distance between two clouds of 4096 points of ℝ³, in 8 batches: what both programs compute, as one function of
  the two arrays.

  For points `a`, `b` of ℝ³ the squared distance is written in two arrangements. Term by term,
  `((0 + (a₀ - b₀)²) + (a₁ - b₁)²) + (a₂ - b₂)²`; and expanded, `(-2 · ∑ₖ aₖ bₖ + (0 + ∑ₖ aₖ²)) + (0 + ∑ₖ bₖ²)`. On real
  coordinates the two are one number (`(x - y)² = x² - 2xy + y²`, summed over the three coordinates). On the extended reals
  the expansion needs the coordinates to be finite: with an infinite coordinate the expanded form adds infinities of both
  signs, the term-by-term form does not.

  From a squared distance `d` the result is built the same way whatever its arrangement: for each point of the first
  cloud the least `d` to the second cloud, for each point of the second the least `d` to the first, each averaged over
  the 4096 points, the two averages added, and the sum averaged over the 8 batches.
-/
import Idealize.ShloMosaic.PureOps.Ideal.Laws
import Idealize.ShloMosaic.Lib.ValueIdx

noncomputable section

namespace Cert.Chamfer

open Idealize.ShloMosaic Idealize.ShloMosaic.ValueIdx

/-- The pattern of `-2.0` is the real `-2`. -/
theorem ofBits_neg_two : Ideal.ofBits .f32 0xC0000000#32 = ((-2 : ℝ) : EReal) := by
  simp [Ideal.ofBits, Ideal.ieee, -EReal.coe_mul]; norm_num

/-- The squared distance, term by term. -/
def sqTerms (a b : Fin 3 → EReal) : EReal :=
  Ideal.ofBits .f32 0x00000000#32 + (a 0 - b 0) * (a 0 - b 0) + (a 1 - b 1) * (a 1 - b 1) + (a 2 - b 2) * (a 2 - b 2)

/-- The squared distance, expanded. -/
def sqExpanded (a b : Fin 3 → EReal) : EReal :=
  Ideal.ofBits .f32 0xC0000000#32 * (∑ k : Fin 3, a k * b k) + (Ideal.ofBits .f32 0x00000000#32 + ∑ k : Fin 3, a k * a k)
    + (Ideal.ofBits .f32 0x00000000#32 + ∑ k : Fin 3, b k * b k)

/-- On finite coordinates the two arrangements are one number. -/
theorem sqExpanded_eq_sqTerms (a b : Fin 3 → EReal) (ha : ∀ k, ∃ r : ℝ, a k = (r : EReal)) (hb : ∀ k, ∃ r : ℝ, b k = (r : EReal)) :
    sqExpanded a b = sqTerms a b := by
  choose α hα using ha
  choose β hβ using hb
  unfold sqExpanded sqTerms
  rw [Fin.sum_univ_three, Fin.sum_univ_three, Fin.sum_univ_three, Ideal.ofBits_zero_f32, ofBits_neg_two,
    hα 0, hα 1, hα 2, hβ 0, hβ 1, hβ 2]
  norm_cast
  push_cast
  ring

/-- The points' array shape: batch, point, coordinate. -/
abbrev Cloud : Shape := ⟨3, ![8, 4096, 3]⟩
/-- One number per batch and point. -/
abbrev PerPoint : Shape := ⟨2, ![8, 4096]⟩

/-- Point `n` of batch `b`: its three coordinates. -/
def pt (f : Cloud.Idx → Ideal .f32) (b : Fin 8) (n : Fin 4096) : Fin 3 → EReal := fun k => f (ix3 b n k)

/-- For point `n` of the first cloud, the least distance to the second cloud. -/
def nearSecond (d : (Fin 3 → EReal) → (Fin 3 → EReal) → EReal) (f g : Cloud.Idx → Ideal .f32) (b : Fin 8) (n : Fin 4096) : EReal :=
  (Finset.univ : Finset (Fin 4096)).fold min ⊤ (fun q => d (pt f b n) (pt g b q))

/-- For point `q` of the second cloud, the least distance to the first cloud. -/
def nearFirst (d : (Fin 3 → EReal) → (Fin 3 → EReal) → EReal) (f g : Cloud.Idx → Ideal .f32) (b : Fin 8) (q : Fin 4096) : EReal :=
  (Finset.univ : Finset (Fin 4096)).fold min ⊤ (fun n => d (pt f b n) (pt g b q))

/-- The two as arrays over batch and point. -/
def nearSecondArr (d : (Fin 3 → EReal) → (Fin 3 → EReal) → EReal) (f g : Cloud.Idx → Ideal .f32) : PerPoint.Idx → Ideal .f32 :=
  fun i => nearSecond d f g (i 0) (i 1)
def nearFirstArr (d : (Fin 3 → EReal) → (Fin 3 → EReal) → EReal) (f g : Cloud.Idx → Ideal .f32) : PerPoint.Idx → Ideal .f32 :=
  fun i => nearFirst d f g (i 0) (i 1)

/-- Both arrangements give the same least distances when every coordinate is finite. -/
theorem nearSecondArr_expanded (f g : Cloud.Idx → Ideal .f32) (hf : ∀ i, ∃ r : ℝ, f i = (r : EReal)) (hg : ∀ i, ∃ r : ℝ, g i = (r : EReal)) :
    nearSecondArr sqExpanded f g = nearSecondArr sqTerms f g := by
  funext i
  unfold nearSecondArr nearSecond
  exact congrArg (fun h => (Finset.univ : Finset (Fin 4096)).fold min ⊤ h)
    (funext fun q => sqExpanded_eq_sqTerms _ _ (fun k => hf _) (fun k => hg _))

theorem nearFirstArr_expanded (f g : Cloud.Idx → Ideal .f32) (hf : ∀ i, ∃ r : ℝ, f i = (r : EReal)) (hg : ∀ i, ∃ r : ℝ, g i = (r : EReal)) :
    nearFirstArr sqExpanded f g = nearFirstArr sqTerms f g := by
  funext i
  unfold nearFirstArr nearFirst
  exact congrArg (fun h => (Finset.univ : Finset (Fin 4096)).fold min ⊤ h)
    (funext fun n => sqExpanded_eq_sqTerms _ _ (fun k => hf _) (fun k => hg _))

/-- The averages: each array summed over its 4096 points and divided by 4096, the two added, the sum over the 8 batches
    divided by 8. Both programs end with these operations, on their own two arrays of least distances. -/
def averages (hR : PerPoint.ReducesTo [1] ⟨1, ![8]⟩) (h0 : 0 < (⟨0, ![]⟩ : Shape).numel)
    (hB : (⟨0, ![]⟩ : Shape).BroadcastsInDim ⟨1, ![8]⟩ (![] : Fin 0 → Fin 1)) (hR0 : (⟨1, ![8]⟩ : Shape).ReducesTo [0] ⟨0, ![]⟩)
    (r s : PerPoint.Idx → Ideal .f32) : (⟨0, ![]⟩ : Shape).Idx → Ideal .f32 :=
  Host.divf (F := Ideal)
    (Host.reduceAdd (F := Ideal)
      (addf
        (Host.divf (F := Ideal) (Host.reduceAdd (F := Ideal) r (constant (F := Ideal) ⟨0, ![]⟩ .f32 0x00000000#32) hR h0)
          (broadcastInDim ⟨1, ![8]⟩ ![] hB (constant (F := Ideal) ⟨0, ![]⟩ .f32 0x45800000#32)))
        (Host.divf (F := Ideal) (Host.reduceAdd (F := Ideal) s (constant (F := Ideal) ⟨0, ![]⟩ .f32 0x00000000#32) hR h0)
          (broadcastInDim ⟨1, ![8]⟩ ![] hB (constant (F := Ideal) ⟨0, ![]⟩ .f32 0x45800000#32))))
      (constant (F := Ideal) ⟨0, ![]⟩ .f32 0x00000000#32) hR0 h0)
    (constant (F := Ideal) ⟨0, ![]⟩ .f32 0x41000000#32)

end Cert.Chamfer

end
-- ==== Proof.LibMinOps.lean ====
/-
  Minima of a matrix along one axis, and a matrix's sum down its rows, each read at an index written by its coordinates,
  on the extended reals.

  For an `[a, b]` matrix the minimum along the lanes at row `p` is the fold of `min`, from the accumulator's value, over
  `c : Fin b` of the entries `(p, c)`; the minimum down the rows at lane `q` is the fold over `r : Fin a` of the entries
  `(r, q)`; the sum down the rows at lane `q` is the sum over `r` of them. The host's minimum over the LAST axis of an
  `[n, a, b]` array reads, at `(k, p)`, the fold over `c : Fin b` of the entries `(k, p, c)`; over the MIDDLE axis, at
  `(k, c)`, the fold over `p : Fin a` of the same entries. The bit pattern of `+∞` is the greatest extended real, so a
  fold of `min` that starts there is the plain minimum of the family.
-/
import Idealize.ShloMosaic.PureOps.Ideal.Laws
import Idealize.ShloMosaic.Lib.Pipeline.Value
import Idealize.ShloMosaic.Lib.ValueIdx

namespace Cert.MinOps

open Idealize.ShloMosaic Idealize.ShloMosaic.ValueIdx

/-- The f32 pattern of `+∞` is the greatest extended real. -/
theorem posInf_eq_top : Ideal.ofBits .f32 0x7F800000#32 = (⊤ : EReal) := by
  simp [Ideal.ofBits, Ideal.ieee]

variable {φ : FTy}

/-- A float minimum over ONE axis, on the extended reals: the fold of `min`, from the accumulator's value, over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The lane minimum of row `p`: the fold of `min` over the row's `b` entries. -/
theorem laneMin_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun c => src (ix2 p c)) := by
  refine (multiReduction_minimumf_single src acc h hφ hacc (ix1 p)).trans ?_
  show (Finset.univ : Finset (Fin b)).fold min (Ideal.ofBits φ acc) (fun c => src (h.lift (ix1 p) c)) = _
  refine congrArg (fun f => (Finset.univ : Finset (Fin b)).fold min (Ideal.ofBits φ acc) f) (funext fun c => ?_)
  exact congrArg src (funext fun ax => Fin.ext (by match ax with | ⟨0, _⟩ => rfl | ⟨1, _⟩ => rfl))

/-- The minimum down the rows at lane `q`: the fold of `min` over the column's `a` entries. -/
theorem rowsMin_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (q : Fin b) :
    multiReduction .minimumf [0] ⟨1, ![b]⟩ src acc h hφ hacc (ix1 q)
      = (Finset.univ : Finset (Fin a)).fold min (Ideal.ofBits φ acc) (fun r => src (ix2 r q)) := by
  refine (multiReduction_minimumf_single src acc h hφ hacc (ix1 q)).trans ?_
  show (Finset.univ : Finset (Fin a)).fold min (Ideal.ofBits φ acc) (fun r => src (h.lift (ix1 q) r)) = _
  refine congrArg (fun f => (Finset.univ : Finset (Fin a)).fold min (Ideal.ofBits φ acc) f) (funext fun r => ?_)
  exact congrArg src (funext fun ax => Fin.ext (by match ax with | ⟨0, _⟩ => rfl | ⟨1, _⟩ => rfl))

/-- The sum down the rows at lane `q`: the sum of the column's `a` entries. -/
theorem rowsSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) := by
  refine (Ideal.multiReduction_add_single src acc h hφ hacc (ix1 q)).trans ?_
  show ∑ r : Fin a, src (h.lift (ix1 q) r) = _
  refine Finset.sum_congr rfl fun r _ => ?_
  exact congrArg src (funext fun ax => Fin.ext (by match ax with | ⟨0, _⟩ => rfl | ⟨1, _⟩ => rfl))

/-- The host's minimum over the LAST axis of an `[n, a, b]` array, at `(k, p)`: the fold of `min`, from the initial value,
    over `c : Fin b` of the entries `(k, p, c)`. -/
theorem hostLastMin_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.minimumf (F := Ideal) (φ := φ)) x init h' hu (ix2 k p)
      = (Finset.univ : Finset (Fin b)).fold min (init (Shape.Idx.first hu)) (fun c => x (ix3 k p c)) := by
  refine (Host.reduce_eq_fold_single (FloatOps.minimumf (F := Ideal) (φ := φ)) x init h' h hu (ix2 k p)).trans ?_
  show (Finset.univ : Finset (Fin b)).fold min (init (Shape.Idx.first hu)) (fun c => x (h.lift (ix2 k p) c)) = _
  refine congrArg (fun f => (Finset.univ : Finset (Fin b)).fold min (init (Shape.Idx.first hu)) f) (funext fun c => ?_)
  exact congrArg x (funext fun ax => Fin.ext (by match ax with | ⟨0, _⟩ => rfl | ⟨1, _⟩ => rfl | ⟨2, _⟩ => rfl))

/-- The host's minimum over the MIDDLE axis of an `[n, a, b]` array, at `(k, c)`: the fold of `min`, from the initial
    value, over `p : Fin a` of the entries `(k, p, c)`. -/
theorem hostMidMin_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.minimumf (F := Ideal) (φ := φ)) x init h' hu (ix2 k c)
      = (Finset.univ : Finset (Fin a)).fold min (init (Shape.Idx.first hu)) (fun p => x (ix3 k p c)) := by
  refine (Host.reduce_eq_fold_single (FloatOps.minimumf (F := Ideal) (φ := φ)) x init h' h hu (ix2 k c)).trans ?_
  show (Finset.univ : Finset (Fin a)).fold min (init (Shape.Idx.first hu)) (fun p => x (h.lift (ix2 k c) p)) = _
  refine congrArg (fun f => (Finset.univ : Finset (Fin a)).fold min (init (Shape.Idx.first hu)) f) (funext fun p => ?_)
  exact congrArg x (funext fun ax => Fin.ext (by match ax with | ⟨0, _⟩ => rfl | ⟨1, _⟩ => rfl | ⟨2, _⟩ => rfl))

/-- A sum over the indices of an `[n, 1, 1]` array is the sum over its first coordinate. -/
theorem sum_idx_n11 {M : Type*} [AddCommMonoid M] {n : ℕ} (f : (⟨3, ![n, 1, 1]⟩ : Shape).Idx → M) :
    ∑ j, f j = ∑ k : Fin n, f (ix3 k (0 : Fin 1) (0 : Fin 1)) := by
  refine (Fintype.sum_equiv
    (⟨fun k => ix3 k (0 : Fin 1) (0 : Fin 1), fun j => j 0, fun _ => rfl, fun j => funext fun d => ?_⟩ :
      Fin n ≃ (⟨3, ![n, 1, 1]⟩ : Shape).Idx) _ _ fun _ => rfl).symm
  match d with
  | ⟨0, _⟩ => rfl
  | ⟨1, _⟩ => exact Subsingleton.elim (α := Fin 1) _ _
  | ⟨2, _⟩ => exact Subsingleton.elim (α := Fin 1) _ _

end Cert.MinOps
-- ==== Proof.RefSide.lean ====
/-
  The reference, read: its result is the averages of the two arrays of least squared distances, the squared distance in
  expanded form.

  Entry (b, n, q) of the reference's distance array is `-2 · ∑ₖ f(b,n,k) g(b,q,k)`, plus the squared norm of point n of
  the first cloud repeated along q, plus the squared norm of point q of the second cloud repeated along n. Its minimum over
  the last axis is, for each point of the first cloud, the least distance to the second; over the middle axis, for each
  point of the second cloud, the least distance to the first.
-/
import proofs.«153936_j11776800325759_2_alg».proof.Proof.Gen.ReferenceIdeal.Read
import proofs.«153936_j11776800325759_2_alg».proof.Proof.Spec
import proofs.«153936_j11776800325759_2_alg».proof.Proof.LibMinOps

noncomputable section

namespace Cert.ReferenceIdeal.RefValue

open Cert.ReferenceIdeal Cert.ReferenceIdeal.Gen Cert.ReferenceIdeal.Read Cert.Chamfer
open Idealize.ShloMosaic Idealize.ShloMosaic.ValueIdx

/-- Entry `(b, n, q)` of the distance array: the expanded squared distance between point `n` of the first cloud and
    point `q` of the second, in batch `b`. -/
theorem dist_apply (x0 x1 : (⟨S8x4096x3, .f32⟩ : BufTy).Contents (Elt Ideal)) (b : Fin 8) (n q : Fin 4096) :
    val_main_v12 (F := Ideal) x0 x1 (ix3 b n q) = sqExpanded (pt x0 b n) (pt x1 b q) := by
  have e0l : ∀ k : Fin 3, lidx_main_v0 (ix3 b n q) k = ix3 b n k := fun k => funext fun a => Fin.ext (by match a with | ⟨0, _⟩ => rfl | ⟨1, _⟩ => rfl | ⟨2, _⟩ => rfl)
  have e0r : ∀ k : Fin 3, ridx_main_v0 (ix3 b n q) k = ix3 b q k := fun k => funext fun a => Fin.ext (by match a with | ⟨0, _⟩ => rfl | ⟨1, _⟩ => rfl | ⟨2, _⟩ => rfl)
  have e4 : ∀ k : Fin 3, idx_main_v4 (idx_main_v5 (idx_main_v6 (ix3 b n q))) k = ix3 b n k :=
    fun k => funext fun a => Fin.ext (by match a with | ⟨0, _⟩ => rfl | ⟨1, _⟩ => rfl | ⟨2, _⟩ => rfl)
  have e9 : ∀ k : Fin 3, idx_main_v9 (idx_main_v10 (idx_main_v11 (ix3 b n q))) k = ix3 b q k :=
    fun k => funext fun a => Fin.ext (by match a with | ⟨0, _⟩ => rfl | ⟨1, _⟩ => rfl | ⟨2, _⟩ => rfl)
  rw [val_main_v12_apply, val_main_v7_apply, val_main_v2_apply, val_main_v1_apply, val_main_cst_apply, val_main_v0_apply,
    val_main_v6_apply, val_main_v5_apply, val_main_v4_apply, val_main_cst_0_apply,
    val_main_v11_apply, val_main_v10_apply, val_main_v9_apply, val_main_cst_1_apply]
  simp only [e0l, e0r, e4, e9, val_main_v3_apply, val_main_v8_apply, Ideal.addf_def, Ideal.mulf_def, Ideal.ofBits_def]
  rfl

/-- The minimum over the last axis: for each point of the first cloud the least distance to the second. -/
theorem nearSecond_eq (x0 x1 : (⟨S8x4096x3, .f32⟩ : BufTy).Contents (Elt Ideal)) :
    val_main_v13 (F := Ideal) x0 x1 = nearSecondArr sqExpanded x0 x1 := by
  funext i
  obtain ⟨b, n, rfl⟩ : ∃ (b : Fin 8) (n : Fin 4096), i = ix2 b n := ⟨i 0, i 1, eq_ix2 i⟩
  unfold val_main_v13
  refine (Cert.MinOps.hostLastMin_apply _ _ reducesTo_S8x4096x4096_S8x4096_d2 (by decide) h_S_ b n).trans ?_
  rw [val_main_cst_2_apply, Ideal.ofBits_def, Cert.MinOps.posInf_eq_top]
  exact congrArg (fun h => (Finset.univ : Finset (Fin 4096)).fold min ⊤ h) (funext fun q => dist_apply x0 x1 b n q)

/-- The minimum over the middle axis: for each point of the second cloud the least distance to the first. -/
theorem nearFirst_eq (x0 x1 : (⟨S8x4096x3, .f32⟩ : BufTy).Contents (Elt Ideal)) :
    val_main_v14 (F := Ideal) x0 x1 = nearFirstArr sqExpanded x0 x1 := by
  funext i
  obtain ⟨b, q, rfl⟩ : ∃ (b : Fin 8) (q : Fin 4096), i = ix2 b q := ⟨i 0, i 1, eq_ix2 i⟩
  unfold val_main_v14
  refine (Cert.MinOps.hostMidMin_apply _ _ reducesTo_S8x4096x4096_S8x4096_d1 (by decide) h_S_ b q).trans ?_
  rw [val_main_cst_3_apply, Ideal.ofBits_def, Cert.MinOps.posInf_eq_top]
  exact congrArg (fun h => (Finset.univ : Finset (Fin 4096)).fold min ⊤ h) (funext fun n => dist_apply x0 x1 b n q)

/-- The reference's result: the averages of the two arrays of least distances. -/
theorem result_eq (x0 x1 : (⟨S8x4096x3, .f32⟩ : BufTy).Contents (Elt Ideal)) :
    val_main_v23 (F := Ideal) x0 x1
      = averages reducesTo_S8x4096_S8_d1 h_S_ bcast_S_S8 reducesTo_S8_S_d0
          (nearSecondArr sqExpanded x0 x1) (nearFirstArr sqExpanded x0 x1) := by
  rw [← nearSecond_eq, ← nearFirst_eq]
  rfl

end Cert.ReferenceIdeal.RefValue

end
-- ==== Proof.KPieces.lean ====
/-
  What the body leaves behind at one grid point, as values.

  At every point the first output's buffer ends holding the row minima of the point's distance matrix. The carried vector
  ends holding, entry by entry, the lesser of the matrix's column minimum and what it held before — at the first row tile
  of a batch what it held is the reset value, stored and read back within the same point. At the last row tile the second
  output's buffer ends holding that carried vector under a leading unit axis. Each is the canonical reading of the stores
  the run found, whose loads read whole buffers.
-/
import proofs.«153936_j11776800325759_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## First row tile of a batch -/

/-- The first output: the row minima. -/
theorem firstTile_rowMin (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (x0 : Vec F S1x1024x3 .f32) (x1 : Vec F S1x4096x3 .f32) :
    out0_A_2 c i arg2 harg2 arg3 harg3 arg4 harg4 arg5 harg5 arg6 harg6 hc0 hc1 x0 x1 = k0_pay5 x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  sl_unfold_words
  rw [View.canon_unit_zero hz3]
  simp only [View.readAt_eq_ld, harg2.read_unread, harg3.read_unread, View.ld_unit_zero (S := S1x1024x3) hz3, View.ld_unit_zero (S := S1x4096x3) hz3]

/-- The carried vector: the column minima folded into the reset value. -/
theorem firstTile_carried (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (x0 : Vec F S1x1024x3 .f32) (x1 : Vec F S1x4096x3 .f32) :
    sout0_A_0 c i arg2 harg2 arg3 harg3 arg4 harg4 arg5 harg5 arg6 harg6 hc0 hc1 x0 x1 = k0_pay1 (k0_pay6 x0 x1) (k0_pay3 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x4096) hz2, View.readCov_unit_zero (S := S1x4096) _ hz2]
  simp only [View.readAt_eq_ld, harg2.read_unread, harg3.read_unread, View.ld_unit_zero (S := S1x1024x3) hz3, View.ld_unit_zero (S := S1x4096x3) hz3]

/-! ## A middle row tile -/

theorem midTile_rowMin (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i) (x0 : Vec F S1x1024x3 .f32) (x1 : Vec F S1x4096x3 .f32) (xs0 : Vec F S1x4096 .f32) :
    out0_B_2 c i arg2 harg2 arg3 harg3 arg4 harg4 arg5 harg5 arg6 harg6 hc0 hc1 x0 x1 xs0 = k0_pay5 x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  sl_unfold_words
  rw [View.canon_unit_zero hz3]
  simp only [View.readAt_eq_ld, harg2.read_unread, harg3.read_unread, View.ld_unit_zero (S := S1x1024x3) hz3, View.ld_unit_zero (S := S1x4096x3) hz3]

/-- The carried vector: the column minima folded into what the point before left. -/
theorem midTile_carried (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i) (x0 : Vec F S1x1024x3 .f32) (x1 : Vec F S1x4096x3 .f32) (xs0 : Vec F S1x4096 .f32) :
    sout0_B_0 c i arg2 harg2 arg3 harg3 arg4 harg4 arg5 harg5 arg6 harg6 hc0 hc1 x0 x1 xs0 = k0_pay1 (k0_pay6 x0 x1) xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S1x1024x3) hz3, View.ld_unit_zero (S := S1x4096x3) hz3, View.ld_unit_zero (S := S1x4096) hz2]

/-! ## Last row tile of a batch -/

theorem lastTile_rowMin (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (x0 : Vec F S1x1024x3 .f32) (x1 : Vec F S1x4096x3 .f32) (xs0 : Vec F S1x4096 .f32) :
    out0_C_2 c i arg2 harg2 arg3 harg3 arg4 harg4 arg5 harg5 arg6 harg6 hc0 hc1 x0 x1 xs0 = k0_pay5 x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, View.ld_unit_zero (S := S1x1024x3) hz3, View.ld_unit_zero (S := S1x4096x3) hz3]

theorem lastTile_carried (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (x0 : Vec F S1x1024x3 .f32) (x1 : Vec F S1x4096x3 .f32) (xs0 : Vec F S1x4096 .f32) :
    sout0_C_0 c i arg2 harg2 arg3 harg3 arg4 harg4 arg5 harg5 arg6 harg6 hc0 hc1 x0 x1 xs0 = k0_pay1 (k0_pay6 x0 x1) xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S1x1024x3) hz3, View.ld_unit_zero (S := S1x4096x3) hz3, View.ld_unit_zero (S := S1x4096) hz2]

/-- The second output: the carried vector as it stands after this point, under a leading unit axis. -/
theorem lastTile_flushed (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1x1024 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (x0 : Vec F S1x1024x3 .f32) (x1 : Vec F S1x4096x3 .f32) (xs0 : Vec F S1x4096 .f32) :
    out0_C_3 c i arg2 harg2 arg3 harg3 arg4 harg4 arg5 harg5 arg6 harg6 hc0 hc1 x0 x1 xs0 = k0_pay2 (k0_pay1 (k0_pay6 x0 x1) xs0) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3, View.readCov_unit_zero (S := S1x4096) _ hz2]
  simp only [View.readAt_eq_ld, harg2.read_unread, harg3.read_unread, harg6.read_unread, View.ld_unit_zero (S := S1x1024x3) hz3, View.ld_unit_zero (S := S1x4096x3) hz3, View.ld_unit_zero (S := S1x4096) hz2]

end Cert.KernelIdeal.Pieces

end
-- ==== Proof.KPoints.lean ====
/-
  What the buffers hold after each grid point, in terms of the body's arithmetic.

  The 32 grid points are 8 batches of 4 row tiles. After every point the first output's buffer holds the row minima of
  the point's matrix. The carried vector holds the column minima folded into the reset value at a batch's first tile, and
  into what the point before left at the other three. At a batch's last tile the second output's buffer holds the carried
  vector as that point leaves it.
-/
import proofs.«153936_j11776800325759_2_alg».proof.Proof.KPieces

set_option maxRecDepth 16384

noncomputable section

namespace Cert.KernelIdeal.PointValue

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- After every point: the first output's buffer holds the row minima. -/
theorem rowOut (c : Dev nD) (t : Fin cfg0.N) :
    (outsAt0 m c t.val t.isLt).1 = k0_pay5 (iblk m c 0 t) (iblk m c 1 t) := by
  have hN : t.val < 32 := lt_of_lt_of_eq t.isLt (show cfg0.N = 32 from N_0)
  by_cases h0 : t.val % 4 = 0
  · have h1 : ¬t.val % 4 = 3 := by omega
    rw [outsAt0_A m c t h0 h1]
    dsimp only
    exact firstTile_rowMin c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 4 = 3
    · rw [outsAt0_C m c t h0 h1]
      dsimp only
      exact lastTile_rowMin c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact midTile_rowMin c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- After a batch's first tile: the carried vector holds the column minima folded into the reset value. -/
theorem carried_first (c : Dev nD) (t : Fin cfg0.N) (h0 : t.val % 4 = 0) :
    (outsAt0 m c t.val t.isLt).2.2 = k0_pay1 (k0_pay6 (iblk m c 0 t) (iblk m c 1 t)) (k0_pay3 (F := F)) := by
  have h1 : ¬t.val % 4 = 3 := by omega
  rw [outsAt0_A m c t h0 h1]
  dsimp only
  exact firstTile_carried c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- After any other tile: the column minima folded into what the point before left. -/
theorem carried_next (c : Dev nD) (t : Fin cfg0.N) (h0 : ¬t.val % 4 = 0) :
    (outsAt0 m c t.val t.isLt).2.2 = k0_pay1 (k0_pay6 (iblk m c 0 t) (iblk m c 1 t)) (outsAt0 m c (t.val - 1) (Nat.lt_of_le_of_lt (Nat.sub_le _ _) t.isLt)).2.2 := by
  by_cases h1 : t.val % 4 = 3
  · rw [outsAt0_C m c t h0 h1]
    dsimp only
    exact lastTile_carried c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  · rw [outsAt0_B m c t h0 h1]
    dsimp only
    exact midTile_carried c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- After a batch's last tile: the second output's buffer holds the carried vector as this point leaves it. -/
theorem flushed_last (c : Dev nD) (t : Fin cfg0.N) (h1 : t.val % 4 = 3) :
    (outsAt0 m c t.val t.isLt).2.1 = k0_pay2 ((outsAt0 m c t.val t.isLt).2.2) := by
  have h0 : ¬t.val % 4 = 0 := by omega
  rw [outsAt0_C m c t h0 h1]
  dsimp only
  refine (lastTile_flushed c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).trans ?_
  exact congrArg k0_pay2 (lastTile_carried c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).symm

end Cert.KernelIdeal.PointValue

end
-- ==== Proof.KBlocks.lean ====
/-
  Where a grid point's blocks sit in the arrays.

  Point `t` of the 32 is row tile `t % 4` of batch `t / 4`. Its block of the first cloud is points
  `(t % 4) * 1024 … (t % 4) * 1024 + 1023` of that batch, its block of the second cloud the whole batch; it writes the first
  output at the same 1024 positions of the batch's row, and the second output's block is the batch's whole row.
-/
import proofs.«153936_j11776800325759_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps, decided over the grid. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = 0 :=
  (by decide +kernel : ∀ t : Fin grid0.N, _)

/-- Entry `(0, p, k)` of the first cloud's block at point `t`: coordinate `k` of point `(t % 4) * 1024 + p` of batch `t / 4`. -/
theorem firstBlock_apply (c : Dev nD) (t : Fin cfg0.N) (p : Fin 1024) (k : Fin 3) (b : Fin 8) (n : Fin 4096)
    (hb : b.val = t.val / 4) (hn : n.val = t.val % 4 * 1024 + p.val) :
    (iblk m c 0 t : Vec F S1x1024x3 .f32) (ix3 (0 : Fin 1) p k) = V m c main_arg0 (ix3 b n k) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 1024 + 1 * p.val = n.val; omega
  | ⟨2, _⟩ => show win0_0.index t (2 : Fin 3) * 3 + 1 * k.val = k.val; omega

/-- Entry `(0, q, k)` of the second cloud's block at point `t`: coordinate `k` of point `q` of batch `t / 4`. -/
theorem secondBlock_apply (c : Dev nD) (t : Fin cfg0.N) (q : Fin 4096) (k : Fin 3) (b : Fin 8) (hb : b.val = t.val / 4) :
    (iblk m c 1 t : Vec F S1x4096x3 .f32) (ix3 (0 : Fin 1) q k) = V m c main_arg1 (ix3 b q k) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = b.val; omega
  | ⟨1, _⟩ => show win0_1.index t (1 : Fin 3) * 4096 + 1 * q.val = q.val; omega
  | ⟨2, _⟩ => show win0_1.index t (2 : Fin 3) * 3 + 1 * k.val = k.val; omega

end Cert.KernelIdeal.Blocks

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.KPay.lean ====
/-
  The body's arithmetic, read at an index on the extended reals.

  A block of the first cloud is 1024 points, the block of the second cloud all 4096. Entry (p, q) of the body's 1024 × 4096
  matrix is the squared distance, term by term, between point p of the first block and point q of the second: coordinate c
  of the first block's points is taken as a column and repeated along the rows, coordinate c of the second block's points
  as a column turned into a row and repeated down the columns. The first output is that matrix's least entry along each
  row, the carried vector its least entry down each column, folded into what the vector held; the reset value is +∞; the
  second output is the carried vector under a leading unit axis.
-/
import proofs.«153936_j11776800325759_2_alg».proof.Proof.Gen.KernelIdeal.Skeleton
import proofs.«153936_j11776800325759_2_alg».proof.Proof.Spec
import proofs.«153936_j11776800325759_2_alg».proof.Proof.LibMinOps
import proofs.«153936_j11776800325759_2_alg».proof.Proof.LibKeepdims
import Idealize.ShloMosaic.Lib.ValueLayout
import Idealize.ShloMosaic.Lib.Pipeline.Value

noncomputable section

namespace Cert.Chamfer

open Idealize.ShloMosaic Idealize.ShloMosaic.ValueIdx

variable {α : Type}

/-- Coordinate `c` of the points of a `[1, n, 3]` block, as a column repeated along the rows of `[n, m]`: at `(p, q)`
    the block's entry `(0, p, c)`. -/
theorem coordColumn_apply {n m : ℕ} (o : ℕ) (c : Fin 3) (hc : c.val = o) (x : (⟨3, ![1, n, 3]⟩ : Shape).Idx → α)
    (hC : (⟨3, ![1, n, 3]⟩ : Shape).ShapeCasts ⟨2, ![n, 3]⟩) (hS : (⟨2, ![n, 3]⟩ : Shape).Slices ![0, o] ⟨2, ![n, 1]⟩)
    (hB : (⟨2, ![n, 1]⟩ : Shape).Broadcasts ⟨2, ![n, m]⟩) (p : Fin n) (q : Fin m) :
    broadcastTo ⟨2, ![n, m]⟩ (extractStridedSlice ⟨2, ![n, 1]⟩ ![0, o] (shapeCast ⟨2, ![n, 3]⟩ x hC) hS) hB (ix2 p q)
      = x (ix3 (0 : Fin 1) p c) :=
  (Cert.Keepdims.broadcastTo_a1_ab_apply _ hB p q).trans
    ((slice2_axis1_apply o _ hS p (0 : Fin 1) c (by show c.val = o + 0; omega)).trans (shapeCast_1ab_ab_apply x hC p c))

/-- Coordinate `c` of the points of a `[1, m, 3]` block, as a column turned into a row and repeated down the columns of
    `[n, m]`: at `(p, q)` the block's entry `(0, q, c)`. -/
theorem coordRow_apply {n m : ℕ} (o : ℕ) (c : Fin 3) (hc : c.val = o) (x : (⟨3, ![1, m, 3]⟩ : Shape).Idx → α)
    (hC : (⟨3, ![1, m, 3]⟩ : Shape).ShapeCasts ⟨2, ![m, 3]⟩) (hS : (⟨2, ![m, 3]⟩ : Shape).Slices ![0, o] ⟨2, ![m, 1]⟩)
    (hT : (⟨2, ![m, 1]⟩ : Shape).Transposes [1, 0] ⟨2, ![1, m]⟩) (hB : (⟨2, ![1, m]⟩ : Shape).Broadcasts ⟨2, ![n, m]⟩)
    (p : Fin n) (q : Fin m) :
    broadcastTo ⟨2, ![n, m]⟩ (transpose ⟨2, ![1, m]⟩ [1, 0]
        (extractStridedSlice ⟨2, ![m, 1]⟩ ![0, o] (shapeCast ⟨2, ![m, 3]⟩ x hC) hS) hT) hB (ix2 p q)
      = x (ix3 (0 : Fin 1) q c) :=
  (broadcastTo_1b_ab_apply _ hB p q).trans
    ((transpose_ix2_apply _ hT (0 : Fin 1) q).trans
      ((slice2_axis1_apply o _ hS q (0 : Fin 1) c (by show c.val = o + 0; omega)).trans (shapeCast_1ab_ab_apply x hC q c)))

end Cert.Chamfer

namespace Cert.KernelIdeal.PayValue

open Cert.KernelIdeal Cert.KernelIdeal.Gen Cert.Chamfer Idealize.ShloMosaic Idealize.ShloMosaic.ValueIdx

/-- Point `p` of a block: its three coordinates. -/
def blkPt {n : ℕ} (x : (⟨3, ![1, n, 3]⟩ : Shape).Idx → Ideal .f32) (p : Fin n) : Fin 3 → EReal := fun k => x (ix3 (0 : Fin 1) p k)

/-- Entry `(p, q)` of the body's matrix: the squared distance, term by term, between point `p` of the first block and
    point `q` of the second. -/
theorem pay4_apply (x0 : FVec Ideal S1x1024x3 .f32) (x1 : FVec Ideal S1x4096x3 .f32) (p : Fin 1024) (q : Fin 4096) :
    k0_pay4 (F := Ideal) x0 x1 (ix2 p q) = sqTerms (blkPt x0 p) (blkPt x1 q) := by
  unfold k0_pay4 sqTerms blkPt
  simp only [addf_apply, mulf_apply, subf_apply, broadcast_apply]
  rw [coordColumn_apply 0 0 rfl, coordColumn_apply 1 1 rfl, coordColumn_apply 2 2 rfl,
    coordRow_apply 0 0 rfl, coordRow_apply 1 1 rfl, coordRow_apply 2 2 rfl]
  rfl

/-- The first output at point `p`: the least entry of row `p`. -/
theorem pay5_apply (x0 : FVec Ideal S1x1024x3 .f32) (x1 : FVec Ideal S1x4096x3 .f32) (p : Fin 1024) :
    k0_pay5 (F := Ideal) x0 x1 (ix3 (0 : Fin 1) (0 : Fin 1) p)
      = (Finset.univ : Finset (Fin 4096)).fold min ⊤ (fun q => k0_pay4 (F := Ideal) x0 x1 (ix2 p q)) := by
  unfold k0_pay5
  refine (shapeCast_ab_1ab_apply _ _ (0 : Fin 1) (0 : Fin 1) p).trans ((shapeCast_a_1a_apply _ _ (0 : Fin 1) p).trans ?_)
  refine (Cert.MinOps.laneMin_apply _ _ _ _ _ p).trans ?_
  rw [Cert.MinOps.posInf_eq_top]

/-- The column minimum at point `q`: the least entry of column `q`. -/
theorem pay6_apply (x0 : FVec Ideal S1x1024x3 .f32) (x1 : FVec Ideal S1x4096x3 .f32) (q : Fin 4096) :
    k0_pay6 (F := Ideal) x0 x1 (ix2 (0 : Fin 1) q)
      = (Finset.univ : Finset (Fin 1024)).fold min ⊤ (fun p => k0_pay4 (F := Ideal) x0 x1 (ix2 p q)) := by
  unfold k0_pay6
  refine (shapeCast_a_1a_apply _ _ (0 : Fin 1) q).trans ?_
  refine (Cert.MinOps.rowsMin_apply _ _ _ _ _ q).trans ?_
  rw [Cert.MinOps.posInf_eq_top]

/-- The carried vector after a point: entry by entry the lesser of what it held and the new column minimum. -/
theorem pay1_apply (v38 v39 : FVec Ideal S1x4096 .f32) (i : S1x4096.Idx) :
    k0_pay1 (F := Ideal) v38 v39 i = min (v39 i) (v38 i) := by
  unfold k0_pay1
  rw [shapeCast_self]
  rfl

/-- The reset value: +∞ everywhere. -/
theorem pay3_apply (i : S1x4096.Idx) : k0_pay3 (F := Ideal) i = (⊤ : EReal) := by
  unfold k0_pay3
  rw [shapeCast_self]
  exact Cert.MinOps.posInf_eq_top

/-- The second output: the carried vector under a leading unit axis. -/
theorem pay2_apply (v47 : FVec Ideal S1x4096 .f32) (q : Fin 4096) :
    k0_pay2 (F := Ideal) v47 (ix3 (0 : Fin 1) (0 : Fin 1) q) = v47 (ix2 (0 : Fin 1) q) := by
  unfold k0_pay2
  exact shapeCast_ab_1ab_apply _ _ (0 : Fin 1) (0 : Fin 1) q

end Cert.KernelIdeal.PayValue

end
-- ==== Proof.LibMinBlocks.lean ====
/-
  A minimum over `n` positions taken block by block, in any linear order with a greatest element.

  The fold of `min` from the greatest element over a finite family is characterised by its lower bounds: `z` is below
  the fold exactly when `z` is below every member. A running minimum over consecutive blocks of `b` positions keeps that
  characterisation block after block: the lower bounds of the first `(n + 1) * b` positions are the lower bounds of the
  first `n * b` that are also lower bounds of block `n`. Two elements with the same lower bounds are equal, which is how a
  running minimum is identified with the minimum taken whole. Only the order is used: in the extended reals the
  statements hold at the infinities too.
-/
import Mathlib.Data.Finset.Fold
import Mathlib.Order.BoundedOrder.Basic
import Mathlib.Data.Fintype.Basic

namespace Cert.Lib.MinBlocks

/-- `z` is below the fold of `min` from the greatest element exactly when it is below every member of the family. -/
theorem le_fold_min_top {α ι : Type*} [LinearOrder α] [OrderTop α] (s : Finset ι) (f : ι → α) (z : α) :
    z ≤ s.fold min ⊤ f ↔ ∀ i ∈ s, z ≤ f i :=
  Iff.trans (Finset.le_fold_min z) ⟨fun h => h.2, fun h => ⟨le_top, h⟩⟩

/-- The same over a whole finite index type. -/
theorem le_fold_min_top_univ {α ι : Type*} [LinearOrder α] [OrderTop α] [Fintype ι] (f : ι → α) (z : α) :
    z ≤ (Finset.univ : Finset ι).fold min ⊤ f ↔ ∀ i, z ≤ f i :=
  (le_fold_min_top Finset.univ f z).trans ⟨fun h i => h i (Finset.mem_univ i), fun h i _ => h i⟩

/-- Two elements with the same lower bounds are equal. -/
theorem eq_of_lower_bounds {α : Type*} [PartialOrder α] {a b : α} (h : ∀ z, z ≤ a ↔ z ≤ b) : a = b :=
  le_antisymm ((h a).mp le_rfl) ((h b).mpr le_rfl)

/-- A property of the first `(n + 1) * b` of `N` positions: it holds of the first `n * b` and of each position `n * b + r`
    of block `n`. -/
theorem forall_lt_succ_block {N : ℕ} (P : Fin N → Prop) (n b : ℕ) (hN : (n + 1) * b ≤ N) :
    (∀ i : Fin N, i.val < (n + 1) * b → P i) ↔
      (∀ i : Fin N, i.val < n * b → P i) ∧
        ∀ r : Fin b, P ⟨n * b + r.val, lt_of_lt_of_le (by rw [Nat.succ_mul]; exact Nat.add_lt_add_left r.isLt _) hN⟩ := by
  have hs : (n + 1) * b = n * b + b := Nat.succ_mul n b
  constructor
  · intro h
    refine ⟨fun i hi => h i (by rw [hs]; exact Nat.lt_add_right _ hi), fun r => h _ ?_⟩
    show n * b + r.val < (n + 1) * b
    rw [hs]; exact Nat.add_lt_add_left r.isLt _
  · rintro ⟨h1, h2⟩ i hi
    by_cases hlt : i.val < n * b
    · exact h1 i hlt
    · have hge : n * b ≤ i.val := Nat.le_of_not_lt hlt
      have hr : i.val - n * b < b := by rw [hs] at hi; exact (Nat.sub_lt_iff_lt_add' hge).mpr hi
      have h3 := h2 ⟨i.val - n * b, hr⟩
      have e : (⟨n * b + (i.val - n * b), lt_of_lt_of_le (by rw [Nat.succ_mul]; exact Nat.add_lt_add_left hr _) hN⟩ : Fin N) = i :=
        Fin.ext (Nat.add_sub_cancel' hge)
      exact e ▸ h3

/-- Before any block nothing is asked. -/
theorem forall_lt_zero_block {N : ℕ} (P : Fin N → Prop) (b : ℕ) : ∀ i : Fin N, i.val < 0 * b → P i := by
  intro i hi; rw [Nat.zero_mul] at hi; exact absurd hi (Nat.not_lt_zero _)

/-- Once the blocks exhaust the positions the bound is no condition. -/
theorem forall_lt_all {N : ℕ} (P : Fin N → Prop) (n b : ℕ) (hN : N ≤ n * b) :
    (∀ i : Fin N, i.val < n * b → P i) ↔ ∀ i : Fin N, P i :=
  ⟨fun h i => h i (lt_of_lt_of_le i.isLt hN), fun h i _ => h i⟩

end Cert.Lib.MinBlocks
-- ==== Proof.RunMin.lean ====
/-
  A minimum over 4096 positions kept as a running minimum over four consecutive tiles of 1024.

  What is kept after tile `k` is described by its lower bounds: `z` is below it exactly when `z` is below every one of
  the first `(k + 1) * 1024` members. Folding one more tile's minimum into it keeps that description, and after the fourth
  tile the description is that of the minimum taken whole.
-/
import proofs.«153936_j11776800325759_2_alg».proof.Proof.LibMinBlocks
import Mathlib.Order.Lattice

namespace Cert.Chamfer.RunMin

open Cert.Lib.MinBlocks

variable {α : Type*} [LinearOrder α] [OrderTop α]

/-- Position `p` of tile `k`. -/
def tilePos (k : ℕ) (hk : (k + 1) * 1024 ≤ 4096) (p : Fin 1024) : Fin 4096 :=
  ⟨k * 1024 + p.val, lt_of_lt_of_le (by rw [Nat.succ_mul]; exact Nat.add_lt_add_left p.isLt _) hk⟩

/-- What is kept describes the first `k` tiles. -/
def Describes (D : Fin 4096 → α) (k : ℕ) (x : α) : Prop :=
  ∀ z, z ≤ x ↔ ∀ r : Fin 4096, r.val < k * 1024 → z ≤ D r

/-- Before any tile the greatest element describes nothing asked. -/
theorem describes_top (D : Fin 4096 → α) : Describes D 0 (⊤ : α) :=
  fun z => ⟨fun _ => forall_lt_zero_block (fun r => z ≤ D r) 1024, fun _ => le_top⟩

/-- Folding tile `k`'s minimum into what describes the first `k` tiles describes the first `k + 1`. -/
theorem describes_step (D : Fin 4096 → α) (k : ℕ) (hk : (k + 1) * 1024 ≤ 4096) (prev new : α) (hprev : Describes D k prev)
    (hnew : ∀ z, z ≤ new ↔ ∀ p : Fin 1024, z ≤ D (tilePos k hk p)) : Describes D (k + 1) (min prev new) := by
  intro z
  rw [le_min_iff, hprev z, hnew z]
  exact (forall_lt_succ_block (fun r => z ≤ D r) k 1024 hk).symm

/-- After the fourth tile what is kept is the minimum taken whole. -/
theorem describes_all (D : Fin 4096 → α) (x : α) (h : Describes D 4 x) :
    x = (Finset.univ : Finset (Fin 4096)).fold min ⊤ D :=
  eq_of_lower_bounds fun z =>
    (h z).trans ((forall_lt_all (fun r => z ≤ D r) 4 1024 (by decide)).trans (le_fold_min_top_univ D z).symm)

end Cert.Chamfer.RunMin
-- ==== Proof.KCarried.lean ====
/-
  The buffers after each grid point, as least distances.

  The first output after point `t` holds, at position `p`, the least distance from point `(t % 4) * 1024 + p` of the first
  cloud to the second cloud of batch `t / 4`. The carried vector after row tile `k` of a batch holds, at `q`, the least
  distance from the first `(k + 1) * 1024` points of the first cloud to point `q` of the second: at tile 0 the tile's column
  minimum folded into +∞, afterwards folded into what the tile before left — by induction on the grid point, carried as a
  description by lower bounds. After tile 3 that is the least distance to the whole first cloud, which is what the second
  output receives.
-/
import proofs.«153936_j11776800325759_2_alg».proof.Proof.KPoints
import proofs.«153936_j11776800325759_2_alg».proof.Proof.KBlocks
import proofs.«153936_j11776800325759_2_alg».proof.Proof.KPay
import proofs.«153936_j11776800325759_2_alg».proof.Proof.RunMin

set_option maxRecDepth 16384

noncomputable section

namespace Cert.KernelIdeal.Carried

open Cert.KernelIdeal Cert.KernelIdeal.Gen Cert.KernelIdeal.PointValue Cert.KernelIdeal.PayValue Cert.KernelIdeal.Blocks
open Cert.Chamfer Cert.Chamfer.RunMin Cert.Lib.MinBlocks
open Idealize.ShloMosaic Idealize.ShloMosaic.TcCoe Idealize.SL.Sem Idealize.ShloMosaic.ValueIdx

variable (m : (ℓ : Loc nD τ sig) → Buf (Elt Ideal) ℓ)

/-- The two clouds as the region finds them. -/
abbrev cloudA (c : Dev nD) : Cloud.Idx → Ideal .f32 := V m c main_arg0
abbrev cloudB (c : Dev nD) : Cloud.Idx → Ideal .f32 := V m c main_arg1

/-- The distances from the points of the first cloud to point `q` of the second, in batch `b`. -/
def toPoint (c : Dev nD) (b : Fin 8) (q : Fin 4096) : Fin 4096 → EReal :=
  fun r => sqTerms (pt (cloudA m c) b r) (pt (cloudB m c) b q)

/-- Point `p` of the first block at `t` is point `n = (t % 4) * 1024 + p` of batch `b = t / 4`. -/
theorem blkPt_first (c : Dev nD) (t : Fin cfg0.N) (p : Fin 1024) (b : Fin 8) (n : Fin 4096)
    (hb : b.val = t.val / 4) (hn : n.val = t.val % 4 * 1024 + p.val) :
    blkPt (n := 1024) (iblk m c 0 t : Vec Ideal S1x1024x3 .f32) p = pt (cloudA m c) b n :=
  funext fun k => firstBlock_apply m c t p k b n hb hn

/-- Point `q` of the second block at `t` is point `q` of batch `b = t / 4`. -/
theorem blkPt_second (c : Dev nD) (t : Fin cfg0.N) (q : Fin 4096) (b : Fin 8) (hb : b.val = t.val / 4) :
    blkPt (n := 4096) (iblk m c 1 t : Vec Ideal S1x4096x3 .f32) q = pt (cloudB m c) b q :=
  funext fun k => secondBlock_apply m c t q k b hb

/-- The matrix entry at `t`: the distance between the two points it stands for. -/
theorem entry_eq (c : Dev nD) (t : Fin cfg0.N) (p : Fin 1024) (q : Fin 4096) (b : Fin 8) (n : Fin 4096)
    (hb : b.val = t.val / 4) (hn : n.val = t.val % 4 * 1024 + p.val) :
    k0_pay4 (F := Ideal) (iblk m c 0 t) (iblk m c 1 t) (ix2 p q) = sqTerms (pt (cloudA m c) b n) (pt (cloudB m c) b q) := by
  rw [pay4_apply (iblk m c 0 t) (iblk m c 1 t) p q, blkPt_first m c t p b n hb hn, blkPt_second m c t q b hb]

/-- The first output after point `t`, at `p`: the least distance from that point of the first cloud to the second cloud. -/
theorem rowOut_apply (c : Dev nD) (t : Fin cfg0.N) (p : Fin 1024) (b : Fin 8) (n : Fin 4096)
    (hb : b.val = t.val / 4) (hn : n.val = t.val % 4 * 1024 + p.val) :
    (outsAt0 m c t.val t.isLt).1 (ix3 (0 : Fin 1) (0 : Fin 1) p) = nearSecond sqTerms (cloudA m c) (cloudB m c) b n := by
  rw [rowOut m c t, pay5_apply (iblk m c 0 t) (iblk m c 1 t) p]
  unfold nearSecond
  exact congrArg (fun h => (Finset.univ : Finset (Fin 4096)).fold min ⊤ h) (funext fun q => entry_eq m c t p q b n hb hn)

/-- Row tile `k`'s column minimum at `q`, by its lower bounds: below it is below every distance from the tile's points. -/
theorem tileColMin_le (c : Dev nD) (t : Fin cfg0.N) (q : Fin 4096) (b : Fin 8) (hb : b.val = t.val / 4)
    (k : ℕ) (hk : (k + 1) * 1024 ≤ 4096) (hkt : t.val % 4 = k) (z : EReal) :
    z ≤ k0_pay6 (F := Ideal) (iblk m c 0 t) (iblk m c 1 t) (ix2 (0 : Fin 1) q) ↔ ∀ p : Fin 1024, z ≤ toPoint m c b q (tilePos k hk p) := by
  rw [pay6_apply (iblk m c 0 t) (iblk m c 1 t) q, le_fold_min_top_univ]
  refine forall_congr' fun p => ?_
  rw [entry_eq m c t p q b (tilePos k hk p) hb (by show k * 1024 + p.val = t.val % 4 * 1024 + p.val; rw [hkt])]
  rfl

/-- After a batch's first tile the carried vector describes that tile. -/
theorem describes_first (c : Dev nD) (t : Fin cfg0.N) (h0 : t.val % 4 = 0) (q : Fin 4096) (b : Fin 8) (hb : b.val = t.val / 4) :
    Describes (toPoint m c b q) 1 ((outsAt0 m c t.val t.isLt).2.2 (ix2 (0 : Fin 1) q)) := by
  rw [carried_first m c t h0, pay1_apply (k0_pay6 (iblk m c 0 t) (iblk m c 1 t)) k0_pay3 (ix2 (0 : Fin 1) q), pay3_apply]
  exact describes_step (toPoint m c b q) 0 (by decide) ⊤ _ (describes_top _)
    (fun z => tileColMin_le m c t q b hb 0 (by decide) h0 z)

/-- After any other tile `k` it describes the tiles up to `k`, if what the point before left describes those before `k`. -/
theorem describes_next (c : Dev nD) (t : Fin cfg0.N) (h0 : ¬t.val % 4 = 0) (q : Fin 4096) (b : Fin 8) (hb : b.val = t.val / 4)
    (k : ℕ) (hk : (k + 1) * 1024 ≤ 4096) (hkt : t.val % 4 = k)
    (ih : Describes (toPoint m c b q) k
      ((outsAt0 m c (t.val - 1) (Nat.lt_of_le_of_lt (Nat.sub_le _ _) t.isLt)).2.2 (ix2 (0 : Fin 1) q))) :
    Describes (toPoint m c b q) (k + 1) ((outsAt0 m c t.val t.isLt).2.2 (ix2 (0 : Fin 1) q)) := by
  rw [carried_next m c t h0, pay1_apply (k0_pay6 (iblk m c 0 t) (iblk m c 1 t)) _ (ix2 (0 : Fin 1) q)]
  exact describes_step (toPoint m c b q) k hk _ _ ih (fun z => tileColMin_le m c t q b hb k hk hkt z)

/-- After point `n` the carried vector describes row tiles `0 … n % 4` of batch `n / 4`. -/
theorem carried_describes (c : Dev nD) : ∀ (n : ℕ) (h : n < cfg0.N) (q : Fin 4096) (b : Fin 8), b.val = n / 4 →
    Describes (toPoint m c b q) (n % 4 + 1) ((outsAt0 m c n h).2.2 (ix2 (0 : Fin 1) q))
  | 0, h, q, b, hb => describes_first m c ⟨0, h⟩ rfl q b hb
  | n + 1, h, q, b, hb => by
    have hN : n + 1 < 32 := lt_of_lt_of_eq h (show cfg0.N = 32 from N_0)
    by_cases h0 : (n + 1) % 4 = 0
    · rw [h0]
      exact describes_first m c ⟨n + 1, h⟩ h0 q b hb
    · have ih := carried_describes c n (Nat.lt_of_succ_lt h) q b (by omega)
      have hk : ((n + 1) % 4 + 1) * 1024 ≤ 4096 := by omega
      have e : n % 4 + 1 = (n + 1) % 4 := by omega
      rw [e] at ih
      exact describes_next m c ⟨n + 1, h⟩ h0 q b hb ((n + 1) % 4) hk rfl ih

/-- After a batch's last tile the carried vector at `q` is the least distance from the whole first cloud to point `q`. -/
theorem carried_last (c : Dev nD) (t : Fin cfg0.N) (h1 : t.val % 4 = 3) (q : Fin 4096) (b : Fin 8) (hb : b.val = t.val / 4) :
    (outsAt0 m c t.val t.isLt).2.2 (ix2 (0 : Fin 1) q) = nearFirst sqTerms (cloudA m c) (cloudB m c) b q := by
  have h := carried_describes m c t.val t.isLt q b hb
  rw [h1] at h
  exact describes_all _ _ h

/-- And that is what the second output's buffer holds there. -/
theorem flushOut_apply (c : Dev nD) (t : Fin cfg0.N) (h1 : t.val % 4 = 3) (q : Fin 4096) (b : Fin 8) (hb : b.val = t.val / 4) :
    (outsAt0 m c t.val t.isLt).2.1 (ix3 (0 : Fin 1) (0 : Fin 1) q) = nearFirst sqTerms (cloudA m c) (cloudB m c) b q := by
  rw [flushed_last m c t h1, pay2_apply _ q]
  exact carried_last m c t h1 q b hb

end Cert.KernelIdeal.Carried

end
-- ==== Proof.KFinal.lean ====
/-
  The two output arrays after the run.

  The first output array is [8, 1, 4096]: every grid point writes back 1024 consecutive positions of its batch's row, and
  the 32 points between them write every position once. The second is [8, 1, 4096] too: only a batch's last row tile writes
  its block back, and that block is the batch's whole row. So the first array ends holding, at (b, 0, n), the least distance
  from point n of the first cloud to the second cloud of batch b, and the second, at (b, 0, q), the least distance from the
  first cloud to point q of the second.
-/
import proofs.«153936_j11776800325759_2_alg».proof.Proof.KCarried

set_option maxRecDepth 16384

noncomputable section

namespace Cert.KernelIdeal.Final

open Cert.KernelIdeal Cert.KernelIdeal.Gen Cert.KernelIdeal.Blocks Cert.KernelIdeal.Carried Cert.Chamfer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The first output array: per point of the first cloud, the least distance to the second cloud. -/
def rowArr (c : Dev nD) : S8x1x4096.Idx → Ideal .f32 :=
  fun i => nearSecond sqTerms (cloudA m c) (cloudB m c) (i 0) (i 2)

/-- The second output array: per point of the second cloud, the least distance to the first cloud. -/
def colArr (c : Dev nD) : S8x1x4096.Idx → Ideal .f32 :=
  fun i => nearFirst sqTerms (cloudA m c) (cloudB m c) (i 0) (i 2)

/-- An index of a block with two leading unit axes is (0, 0, its last coordinate). -/
theorem eq_ix3_unit {n : ℕ} (y : (⟨3, ![1, 1, n]⟩ : Shape).Idx) : ∃ p : Fin n, y = ix3 (0 : Fin 1) (0 : Fin 1) p :=
  ⟨y 2, funext fun a => by
    match a with
    | ⟨0, _⟩ => exact Subsingleton.elim (α := Fin 1) _ _
    | ⟨1, _⟩ => exact Subsingleton.elim (α := Fin 1) _ _
    | ⟨2, _⟩ => rfl⟩

/-! ## The first output -/

/-- What point `t` leaves at position `y` of its block is the array's value at the index the block puts there. -/
theorem rowBlock_apply (c : Dev nD) (t : Fin cfg0.N) (y : S1x1x1024.Idx) (i : S8x1x4096.Idx)
    (h0 : (i 0).val = t.val / 4) (h2 : (i 2).val = t.val % 4 * 1024 + (y 2).val) :
    (outsAt0 m c t.val t.isLt).1 y = rowArr m c i := by
  obtain ⟨p, rfl⟩ := eq_ix3_unit y
  exact rowOut_apply m c t p (i 0) (i 2) h0 h2

/-- What point `t` writes back is its block of the array. -/
theorem flushedRow_eq (c : Dev nD) (t : Fin cfg0.N) :
    (dats m 0 c).flushed 2 t = ((cfg0.win 2).blk t).view.read (Elt Ideal) (rowArr m c) := by
  show (cfg0.win 2).cut (grid0.coords t) ((dats m 0 c).after 2 t) = _
  rw [after0_2]
  obtain ⟨-, -, -, -, -, -, e0, e1, e2, -⟩ := idx_facts t
  funext y
  refine rowBlock_apply m c t y (((cfg0.win 2).blk t).view.emb y) ?_ ?_
  · show win0_2.index t (0 : Fin 3) * 1 + 1 * (y 0).val = t.val / 4
    have hy : (y 0).val < 1 := (y 0).isLt
    omega
  · show win0_2.index t (2 : Fin 3) * 1024 + 1 * (y 2).val = t.val % 4 * 1024 + (y 2).val
    omega

/-- An index of the array is in point `t`'s block iff each coordinate is in the block's range on its axis. -/
theorem mem_rowBlk (t : Fin cfg0.N) (i : S8x1x4096.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v0_0).slice (win0_2.rect t)).set ↔ _
  rw [View.set_slice_whole, Rect.mem_set_unit]
  exact Iff.rfl

/-- Every index is in the block of the point of its batch and row tile. -/
theorem row_cover (i : S8x1x4096.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  have hN : (32 : ℕ) = cfg0.N := N_0.symm
  obtain ⟨t, ht⟩ : ∃ t : Fin cfg0.N, t.val = (i 0).val * 4 + (i 2).val / 1024 :=
    ⟨⟨(i 0).val * 4 + (i 2).val / 1024, lt_of_lt_of_eq (by omega) hN⟩, rfl⟩
  obtain ⟨-, -, -, -, -, -, e0, e1, e2, -⟩ := idx_facts t
  refine ⟨t, flush0_2 t, ?_⟩
  rw [mem_rowBlk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 1024 ≤ (i 2).val ∧ (i 2).val < win0_2.index t (2 : Fin 3) * 1024 + 1024
    omega

/-- The first output array after the run. -/
theorem final_row (c : Dev nD) : (dats m 0 c).arrAt 2 cfg0.N = rowArr m c :=
  (dats m 0 c).arrAt_eq_of_cover 2 (rowArr m c) (fun t _ => flushedRow_eq m c t) row_cover

/-! ## The second output -/

theorem colBlock_apply (c : Dev nD) (t : Fin cfg0.N) (h1 : t.val % 4 = 3) (y : S1x1x4096.Idx) (i : S8x1x4096.Idx)
    (h0 : (i 0).val = t.val / 4) (h2 : (i 2).val = (y 2).val) :
    (outsAt0 m c t.val t.isLt).2.1 y = colArr m c i := by
  obtain ⟨q, rfl⟩ := eq_ix3_unit y
  have e : i 2 = q := Fin.ext h2
  unfold colArr
  rw [e]
  exact flushOut_apply m c t h1 q (i 0) h0

/-- What a batch's last tile writes back is its block of the array. -/
theorem flushedCol_eq (c : Dev nD) (t : Fin cfg0.N) (hf : (cfg0.win 3).flush t = true) :
    (dats m 0 c).flushed 3 t = ((cfg0.win 3).blk t).view.read (Elt Ideal) (colArr m c) := by
  have h1 : t.val % 4 = 3 := (flush0_3 t).mp hf
  show (cfg0.win 3).cut (grid0.coords t) ((dats m 0 c).after 3 t) = _
  rw [after0_3]
  obtain ⟨-, -, -, -, -, -, -, -, -, e0, e1, e2⟩ := idx_facts t
  funext y
  refine colBlock_apply m c t h1 y (((cfg0.win 3).blk t).view.emb y) ?_ ?_
  · show win0_3.index t (0 : Fin 3) * 1 + 1 * (y 0).val = t.val / 4
    have hy : (y 0).val < 1 := (y 0).isLt
    omega
  · show win0_3.index t (2 : Fin 3) * 4096 + 1 * (y 2).val = (y 2).val
    omega

theorem mem_colBlk (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Every index is in the block of its batch's last row tile. -/
theorem col_cover (i : S8x1x4096.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hN : (32 : ℕ) = cfg0.N := N_0.symm
  obtain ⟨t, ht⟩ : ∃ t : Fin cfg0.N, t.val = (i 0).val * 4 + 3 :=
    ⟨⟨(i 0).val * 4 + 3, lt_of_lt_of_eq (by omega) hN⟩, rfl⟩
  obtain ⟨-, -, -, -, -, -, -, -, -, e0, e1, e2⟩ := idx_facts t
  refine ⟨t, (flush0_3 t).mpr (by omega), ?_⟩
  rw [mem_colBlk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 4096 ≤ (i 2).val ∧ (i 2).val < win0_3.index t (2 : Fin 3) * 4096 + 4096
    omega

/-- The second output array after the run. -/
theorem final_col (c : Dev nD) : (dats m 0 c).arrAt 3 cfg0.N = colArr m c :=
  (dats m 0 c).arrAt_eq_of_cover 3 (colArr m c) (flushedCol_eq m c) col_cover

end Cert.KernelIdeal.Final

end
-- ==== Proof.LibMidUnit.lean ====
/-
  A unit axis in the middle of a rank-3 array dropped by a shape cast, read at an index written by its coordinates. A
  general fact about the shapes [a, 1, b] and [a, b]: nothing here mentions a program.
-/
import Idealize.ShloMosaic.Lib.ValueLayout

noncomputable section

namespace Cert.Lib.MidUnit

open Idealize.ShloMosaic Idealize.ShloMosaic.ValueIdx

variable {α : Type}

/-- An `[a, 1, b]` array cast to `[a, b]` reads, at `(i, j)`, the operand at `(i, 0, j)`: both sit at row-major
    position `i * b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.MidUnit

end
-- ==== Proof.KRun.lean ====
/-
  The kernel's run, read: its result is the averages of the two arrays of least squared distances, the squared distance
  term by term.

  After the region the program drops the unit axis of each [8, 1, 4096] output and averages: both squeezed arrays are the
  specification's arrays over batch and point, and the operations after the region are the averages applied to them.
-/
import proofs.«153936_j11776800325759_2_alg».proof.Proof.KFinal
import proofs.«153936_j11776800325759_2_alg».proof.Proof.LibMidUnit
import Idealize.ShloMosaic.Lib.StableHlo.Run
import Idealize.ShloMosaic.Lib.Tactic

set_option maxRecDepth 16384

noncomputable section

namespace Cert.KernelIdeal.RunValue

open Cert.KernelIdeal Cert.KernelIdeal.Gen Cert.KernelIdeal.Final Cert.KernelIdeal.Carried Cert.Chamfer Cert.Lib.MidUnit
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The first output with its unit axis dropped: per batch and point of the first cloud, the least distance to the second. -/
theorem rowSqueezed (c : Dev nD) :
    shapeCast S8x4096 (rowArr m c) shapeCasts_S8x1x4096_S8x4096 = nearSecondArr sqTerms (cloudA m c) (cloudB m c) := by
  funext i
  obtain ⟨b, n, rfl⟩ : ∃ (b : Fin 8) (n : Fin 4096), i = ix2 b n := ⟨i 0, i 1, eq_ix2 i⟩
  exact shapeCast_a1b_ab_apply _ _ b n

/-- The second output with its unit axis dropped: per batch and point of the second cloud, the least distance to the first. -/
theorem colSqueezed (c : Dev nD) :
    shapeCast S8x4096 (colArr m c) shapeCasts_S8x1x4096_S8x4096 = nearFirstArr sqTerms (cloudA m c) (cloudB m c) := by
  funext i
  obtain ⟨b, q, rfl⟩ : ∃ (b : Fin 8) (q : Fin 4096), i = ix2 b q := ⟨i 0, i 1, eq_ix2 i⟩
  exact shapeCast_a1b_ab_apply _ _ b q

/-- What the region leaves in the first output array. -/
theorem rowLeft (c : Dev nD) : (Pipeline.withArrays (cfgs 0).spec c (V0 m c) (fun w => (dats m 0 c).arrAt w (cfgs 0).N) (Proc.devRef .tc main_v0_0)) = rowArr m c :=
  (Pipeline.withArrays_arr spec0 launch0.win.arr_inj c _ _ 2).trans (final_row m c)

/-- What the region leaves in the second output array. -/
theorem colLeft (c : Dev nD) : (Pipeline.withArrays (cfgs 0).spec c (V0 m c) (fun w => (dats m 0 c).arrAt w (cfgs 0).N) (Proc.devRef .tc main_v0_1)) = colArr m c :=
  (Pipeline.withArrays_arr spec0 launch0.win.arr_inj c _ _ 3).trans (final_col m c)

/-- The operations after the region, applied to what it leaves: the averages of the two arrays of least distances. -/
theorem tail_eq (c : Dev nD) :
    Pipeline.afterTail₀ cfgs (dats m) 0 (V0 m) [hostOps1] c main_v11
      = averages reducesTo_S8x4096_S8_d1 h_S_ bcast_S_S8 reducesTo_S8_S_d0
          (nearSecondArr sqTerms (cloudA m c) (cloudB m c)) (nearFirstArr sqTerms (cloudA m c) (cloudB m c)) := by
  unfold Pipeline.afterTail₀
  show StableHlo.after hostOps1 _ (Proc.devRef .tc main_v11) = _
  after_results
  show averages reducesTo_S8x4096_S8_d1 h_S_ bcast_S_S8 reducesTo_S8_S_d0
      (shapeCast S8x4096 (Pipeline.withArrays (cfgs 0).spec c (V0 m c) (fun w => (dats m 0 c).arrAt w (cfgs 0).N) (Proc.devRef .tc main_v0_0)) shapeCasts_S8x1x4096_S8x4096)
      (shapeCast S8x4096 (Pipeline.withArrays (cfgs 0).spec c (V0 m c) (fun w => (dats m 0 c).arrAt w (cfgs 0).N) (Proc.devRef .tc main_v0_1)) shapeCasts_S8x1x4096_S8x4096) = _
  rw [rowLeft m c, colLeft m c, rowSqueezed m c, colSqueezed m c]

/-- Every weakly fair execution of the kernel's program terminates with its result at the averages of the least
    distances between the two argument arrays, and the arguments unchanged. -/
theorem run : θ_run defs (onTc (τ := τ) (main (F := Ideal))) ⟨m, fun _ => 0, ρ⟩ fun r => ∀ c : Dev nD,
      r.2.mem ((c : Thread nD τ).loc main_v11)
        = averages reducesTo_S8x4096_S8_d1 h_S_ bcast_S_S8 reducesTo_S8_S_d0
            (nearSecondArr sqTerms (m ((c : Thread nD τ).loc main_arg0)) (m ((c : Thread nD τ).loc main_arg1)))
            (nearFirstArr sqTerms (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v11 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.Finite.lean ====
/-
  The precondition says every entry of both clouds is a finite number.

  The printed predicate is `all (|f| < +∞) ∧ all (|g| < +∞)`. On the extended reals `|x| = max x (-x)` is below +∞ exactly
  when `x` is neither infinity, that is, when `x` is a real number.
-/
import proofs.«153936_j11776800325759_2_alg».proof.Pre_finite_inputs
import proofs.«153936_j11776800325759_2_alg».proof.Proof.LibMinOps
import Idealize.ShloMosaic.Lib.ReduceAll
import Idealize.ShloMosaic.Lib.Affine
import Idealize.ShloMosaic.Lib.ValueIdx

noncomputable section

namespace Cert.Chamfer.Finite

open Idealize.ShloMosaic Idealize.ShloMosaic.ValueIdx

instance : Subsingleton Cert.Pre_finite_inputs.S_.Idx := ⟨fun a b => funext fun d => d.elim0⟩

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [Cert.MinOps.posInf_eq_top] at h
  have hlt : max x (-x) < ⊤ := by
    by_contra hn
    simp [Ideal.cmp, hn] at h
  induction x using EReal.rec with
  | bot => simp at hlt
  | coe r => exact ⟨r, rfl⟩
  | top => simp at hlt

/-- Under the precondition every entry of both arrays is a real number. -/
theorem real_of_pre [Cert.Pre_finite_inputs.Facts] (f g : FVec Ideal Cert.Pre_finite_inputs.S8x4096x3 .f32)
    (h : Cert.Pre_finite_inputs.fn (F := Ideal) f g = fun _ => 1#1) :
    (∀ i, ∃ r : ℝ, f i = (r : EReal)) ∧ (∀ i, ∃ r : ℝ, g i = (r : EReal)) := by
  have h0 := congrFun h ix0
  dsimp only [Cert.Pre_finite_inputs.fn] at h0
  have h1 := IntOp.andi_eq_one.mp h0
  refine ⟨fun i => real_of_abs_lt (f i) ?_, fun i => real_of_abs_lt (g i) ?_⟩
  · exact Host.reduce_andi_all _ _ _ _ ix0 h1.1 i
  · exact Host.reduce_andi_all _ _ _ _ ix0 h1.2 i

end Cert.Chamfer.Finite

end
-- ==== Proof.lean ====
/-
  Chamfer distance: a kernel that computes squared distances term by term and keeps a running minimum over row tiles,
  against a reference that expands the square and takes both minima over the whole distance array.

  Both programs take two clouds of 4096 points of ℝ³ in 8 batches and return one number: for each point of the first cloud
  the least squared distance to the second cloud, for each point of the second the least squared distance to the first,
  each averaged over the points, the two averages added, and the sum averaged over the batches.

  The kernel writes `((0 + (a₀ - b₀)²) + (a₁ - b₁)²) + (a₂ - b₂)²`; the reference `(-2 · ∑ₖ aₖ bₖ + (0 + ∑ₖ aₖ²)) + (0 + ∑ₖ bₖ²)`.
  On finite coordinates these are one real number; with an infinite coordinate the expanded form would add infinities of
  both signs, so the equality uses the precondition that every input is finite (Proof/Spec.lean, Proof/Finite.lean).

  The kernel's grid is 8 batches by 4 row tiles of 1024 points of the first cloud; the whole second cloud is resident at
  every point. The first output is complete within a point: a row's minimum over all 4096 columns. The second is a minimum
  down the rows, which a point sees only 1024 at a time: a vector carried from tile to tile, reset to +∞ at a batch's first
  tile and written out at its last. A minimum over 4096 members taken in four consecutive blocks is the minimum taken
  whole — in any linear order, so also at the infinities (Proof/RunMin.lean, Proof/KCarried.lean). Read at Ideal the two
  programs therefore leave the same two arrays of least distances, and both end with the same averaging operations on them.

  The three frames are the generated ones (the reference's is its generated run with the result dropped); the idealization
  rewrote nothing, so `preserves` is `True`.
-/
import proofs.«153936_j11776800325759_2_alg».proof.Defs
import proofs.«153936_j11776800325759_2_alg».proof.Proof.Gen.Kernel
import proofs.«153936_j11776800325759_2_alg».proof.Proof.Gen.Kernel.Frame
import proofs.«153936_j11776800325759_2_alg».proof.Proof.Gen.KernelIdeal
import proofs.«153936_j11776800325759_2_alg».proof.Proof.Gen.KernelIdeal.Frame
import proofs.«153936_j11776800325759_2_alg».proof.Proof.Gen.ReferenceIdeal
import proofs.«153936_j11776800325759_2_alg».proof.Proof.Gen.ReferenceIdeal.Run
import proofs.«153936_j11776800325759_2_alg».proof.Proof.Gen.Pre_finite_inputs
import proofs.«153936_j11776800325759_2_alg».proof.Proof.RefSide
import proofs.«153936_j11776800325759_2_alg».proof.Proof.KRun
import proofs.«153936_j11776800325759_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At Ideal, from memories that agree on the two clouds, both programs end with the averages of the least squared
    distances: the kernel's squared distance term by term, the reference's expanded, equal because the inputs are finite. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨hf, hg⟩ := Cert.Chamfer.Finite.real_of_pre _ _ (hpre c)
  rw [(hagree c).1, (hagree c).2, Cert.ReferenceIdeal.Read.val_main_v23_eq, Cert.ReferenceIdeal.RefValue.result_eq,
    Cert.Chamfer.nearSecondArr_expanded _ _ hf hg, Cert.Chamfer.nearFirstArr_expanded _ _ hf hg]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
